-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 108
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x128, .f32⟩
  | .hbm, ⟨80, _⟩ => ⟨S1700000x1, .f32⟩
  | .hbm, ⟨81, _⟩ => ⟨S1700000x128, .f32⟩
  | .hbm, ⟨82, _⟩ => ⟨S1700000x128, .f32⟩
  | .hbm, ⟨83, _⟩ => ⟨S_, .f32⟩
  | .hbm, ⟨84, _⟩ => ⟨S100000x128, .f32⟩
  | .hbm, ⟨85, _⟩ => ⟨S1700000x1, .i32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000x128, .f32⟩
  | .hbm, ⟨99, _⟩ => ⟨S1700000x1, .f32⟩
  | .hbm, ⟨100, _⟩ => ⟨S1700000x128, .f32⟩
  | .hbm, ⟨101, _⟩ => ⟨S1700000x128, .f32⟩
  | .hbm, ⟨102, _⟩ => ⟨S_, .f32⟩
  | .hbm, ⟨103, _⟩ => ⟨S100000x128, .f32⟩
  | .hbm, ⟨104, _⟩ => ⟨S1700000x1, .i32⟩
  | .hbm, ⟨105, _⟩ => ⟨S100000x128, .f32⟩
  | .hbm, ⟨106, _⟩ => ⟨S1x128, .f32⟩
  | .hbm, ⟨107, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_12 : Ref sig .tc := ⟨.hbm, 90, rfl⟩
abbrev main_v65 : Ref sig .tc := ⟨.hbm, 91, rfl⟩
abbrev main_v66 : Ref sig .tc := ⟨.hbm, 92, rfl⟩
abbrev main_c_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 181
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S100000, .f32⟩
  | 18 => ⟨S1700000, .f32⟩
  | 19 => ⟨S100000x128, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S_, .f32⟩
  | 76 => ⟨S100000, .f32⟩
  | 77 => ⟨S1700000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000, .f32⟩
  | 96 => ⟨S1700000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000, .f32⟩
  | 106 => ⟨S1700000, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000x128, .f32⟩
  | 116 => ⟨S1700000x1, .f32⟩
  | 117 => ⟨S1700000x128, .f32⟩
  | 118 => ⟨S1700000x128, .f32⟩
  | 119 => ⟨S_, .f32⟩
  | 120 => ⟨S100000x128, .f32⟩
  | 121 => ⟨S1700000x1, .i32⟩
  | 122 => ⟨S100000x128, .f32⟩
  | 123 => ⟨S1x128, .f32⟩
  | 124 => ⟨S100000x128, .f32⟩
  | 125 => ⟨S100000x128, .f32⟩
  | 126 => ⟨S_, .f32⟩
  | 127 => ⟨S100000x128, .f32⟩
  | _ => ⟨S100000x128, .f32⟩

abbrev hbmTy0_1 (i : Nat) : BufTy := match i % 128 with
  | 0 => ⟨S100000x128, .f32⟩
  | 1 => ⟨S100000x128, .f32⟩
  | 2 => ⟨S_, .f32⟩
  | 3 => ⟨S100000, .f32⟩
  | 4 => ⟨S1700000x1, .i32⟩
  | 5 => ⟨S100000, .f32⟩
  | 6 => ⟨S_, .f32⟩
  | 7 => ⟨S100000, .f32⟩
  | 8 => ⟨S100000, .i1⟩
  | 9 => ⟨S100000, .f32⟩
  | 10 => ⟨S_, .f32⟩
  | 11 => ⟨S_, .f32⟩
  | 12 => ⟨S100000, .f32⟩
  | 13 => ⟨S100000, .f32⟩
  | 14 => ⟨S_, .i32⟩
  | 15 => ⟨S1700000, .i32⟩
  | 16 => ⟨S1700000, .i1⟩
  | 17 => ⟨S_, .i32⟩
  | 18 => ⟨S1700000, .i32⟩
  | 19 => ⟨S1700000, .i32⟩
  | 20 => ⟨S1700000, .i32⟩
  | 21 => ⟨S1700000x1, .i32⟩
  | 22 => ⟨S1700000, .f32⟩
  | 23 => ⟨S1700000, .f32⟩
  | 24 => ⟨S_, .i32⟩
  | 25 => ⟨S1700000, .i32⟩
  | 26 => ⟨S1700000, .i1⟩
  | 27 => ⟨S_, .i32⟩
  | 28 => ⟨S1700000, .i32⟩
  | 29 => ⟨S1700000, .i32⟩
  | 30 => ⟨S1700000, .i32⟩
  | 31 => ⟨S1700000x1, .i32⟩
  | 32 => ⟨S1700000, .f32⟩
  | 33 => ⟨S1700000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000x128, .f32⟩
  | 43 => ⟨S1700000x1, .f32⟩
  | 44 => ⟨S1700000x128, .f32⟩
  | 45 => ⟨S1700000x128, .f32⟩
  | 46 => ⟨S_, .f32⟩
  | 47 => ⟨S100000x128, .f32⟩
  | 48 => ⟨S1700000x1, .i32⟩
  | 49 => ⟨S100000x128, .f32⟩
  | 50 => ⟨S1x128, .f32⟩
  | 51 => ⟨S100000x128, .f32⟩
  | 52 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_call2_v0 : Ref sig .tc := ⟨.hbm, 84, rfl⟩
abbrev main_call2_v1 : Ref sig .tc := ⟨.hbm, 85, rfl⟩
abbrev main_v57 : Ref sig .tc := ⟨.hbm, 86, rfl⟩
abbrev main_c_12 : Ref sig .tc := ⟨.hbm, 87, rfl⟩
abbrev main_v58 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_c_15 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_16 : Ref sig .tc := ⟨.hbm, 107, rfl⟩
abbrev main_v74 : Ref sig .tc := ⟨.hbm, 108, rfl⟩
abbrev main_v75 : Ref sig .tc := ⟨.hbm, 109, rfl⟩
abbrev main_c_17 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_18 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_call3_cst : Ref sig .tc := ⟨.hbm, 126, rfl⟩
abbrev main_call3_v0 : Ref sig .tc := ⟨.hbm, 127, rfl⟩
abbrev main_v90 : Ref sig .tc := ⟨.hbm, 128, rfl⟩
abbrev main_v91 : Ref sig .tc := ⟨.hbm, 129, rfl⟩
abbrev main_cst_19 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_20 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_21 : Ref sig .tc := ⟨.hbm, 138, rfl⟩
abbrev main_call4_v0 : Ref sig .tc := ⟨.hbm, 139, rfl⟩
abbrev main_call4_v1 : Ref sig .tc := ⟨.hbm, 140, rfl⟩
abbrev main_v98 : Ref sig .tc := ⟨.hbm, 141, rfl⟩
abbrev main_c_22 : Ref sig .tc := ⟨.hbm, 142, rfl⟩
abbrev main_v99 : Ref sig .tc := ⟨.hbm, 143, rfl⟩
abbrev main_v100 : Ref sig .tc := ⟨.hbm, 144, rfl⟩
abbrev main_c_23 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_c_24 : Ref sig .tc := ⟨.hbm, 152, rfl⟩
abbrev main_v107 : Ref sig .tc := ⟨.hbm, 153, rfl⟩
abbrev main_v108 : Ref sig .tc := ⟨.hbm, 154, rfl⟩
abbrev main_c_25 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_c_26 : Ref sig .tc := ⟨.hbm, 162, rfl⟩
abbrev main_v115 : Ref sig .tc := ⟨.hbm, 163, rfl⟩
abbrev main_v116 : Ref sig .tc := ⟨.hbm, 164, rfl⟩
abbrev main_c_27 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_28 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KRun.lean ====
/-
  The kernel program's run, with its result named.

  The program is twelve segments in a row: stretches of array operations on the host and six tiled kernel launches
  (three matrix products and three bias additions, each over 20 blocks of 5000 node rows).  The buffer contents at
  each boundary are a fold from the launch memory: a host stretch replaces the buffers its operations write, a launch
  replaces its output array by what its blocks write back.  Every weakly fair execution terminates in a state whose
  unscoped buffers hold the last boundary's contents; here that reading is kept for the result buffer as well as for
  the nine arguments.
-/
import proofs.«174687_j17540646436881_1_alg».proof.Proof.Gen.KernelIdeal.Frame

set_option maxRecDepth 16384

noncomputable section

namespace Cert.KernelIdeal.GcnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, without a fault, with the result buffer at the last
    boundary's contents and the arguments as launched. -/
theorem run_last : θ_run defs (onTc (τ := τ) (main (F := F))) ⟨m, fun _ => 0, ρ⟩ (fun r => ∀ c : Dev nD,
      r.2.mem ((c.tc : Thread nD τ).loc main_v79) = W12 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v79 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.GcnRun

end
-- ==== Proof.LibPlainDot.lean ====
/-
  A plain matrix product read at an entry, on the extended reals.

  For the dimension numbers "rows x contraction times contraction x columns" (`DotDims.plain M K N`: the left
  operand [M, K] contracted on its second axis, the right operand [K, N] on its first, no batch axis), both a
  `tpu.matmul` into the zero accumulator and the host's `dot_general` are, at an output entry (r, c), the plain sum

      sum over k < K of  l (r, k) * r (k, c)

  of products of extended reals: no rounding, no chunking and no accumulator are left. Nothing is assumed finite: the
  statement is about one and the same finite sum of products, only re-indexed from the contraction's own index type
  to `Fin K`. Generic in the three extents, so one statement serves a row block of a matrix and the whole matrix.
-/
import Idealize.ShloMosaic.PureOps.Ideal.Laws
import Idealize.ShloMosaic.Lib.ValueIdx

noncomputable section

namespace PlainDot

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single rfl j _).trans hk

/-- The right operand's index at output entry `j` and contraction position `k` is (`k`, column of `j`). -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ =>
    exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction's sum, over its own index type, is the sum over `k < K` of `l (row, k) * r (k, column)`. -/
theorem sum_eq (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  rw [lhsIdx_eq, rhsIdx_eq]
  rfl

/-- A `tpu.matmul` into the zero accumulator, at an entry: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, (l (ix2 (j 0) k) : EReal) * r (ix2 k (j 1)) :=
  (Ideal.matmul_constant_zero_apply (DotDims.plain M K N) prec l r j).trans (sum_eq M K N l r j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, (l (ix2 (j 0) k) : EReal) * r (ix2 k (j 1)) :=
  (Ideal.dotGeneral_apply (DotDims.plain M K N) prec sched l r j).trans (sum_eq M K N l r j)

end PlainDot

end
-- ==== Proof.LibRowsProduct.lean ====
/-
  The product of two matrices of extended reals as ONE function of its entries, and the ways a program
  spells it.

  `prod M K N x w` at the entry (r, c) is the sum over k < K of x (r, k) * w (k, c). On the extended reals this sum
  is a sum in a commutative monoid, so it does not depend on an order or a grouping, and nothing needs to be finite.

  * the host's `dot_general` with the plain dimension numbers is `prod`;
  * a `tpu.matmul` of the two operands cast to bf16, into the zero accumulator, is `prod` of the operands
    themselves (at the exact instance a change of float format is the identity);
  * ROW LOCALITY: an entry of the product reads one row of the left operand and one column of the right one, so
    the product of a block of rows with the whole right operand, at an entry of the block, is the product of the
    whole matrices at the entry the block's position sends it to. This is what lets a kernel tile the rows of the
    left operand over a grid and still compute the one product.
  * a row vector [1, N] added to every row (`addRow`), as the kernel spells it (a broadcast along the rows and a sum);
  * the hyperbolic tangent applied entry by entry is the same function whether the kernel's or the host's
    operation spells it.
-/
import Idealize.ShloMosaic.PureOps.Ideal.Laws
import Idealize.ShloMosaic.Lib.ValueIdx
import Idealize.ShloMosaic.Lib.Pipeline.Value
import proofs.«174687_j17540646436881_1_alg».proof.Proof.LibPlainDot

noncomputable section

namespace RowsProduct

open Idealize.ShloMosaic Idealize.ShloMosaic.ValueIdx

variable (M K N : Nat)

/-- The matrix product, entry by entry: at (r, c) the sum over k of x (r, k) * w (k, c). -/
def prod (x : FVec Ideal ⟨2, ![M, K]⟩ .f32) (w : FVec Ideal ⟨2, ![K, N]⟩ .f32) : FVec Ideal ⟨2, ![M, N]⟩ .f32 :=
  fun j => ∑ k : Fin K, (x (ix2 (j 0) k) : EReal) * w (ix2 k (j 1))

/-- The host's `dot_general` with plain dimension numbers is the matrix product. -/
theorem hostDot_eq (x : FVec Ideal ⟨2, ![M, K]⟩ .f32) (w : FVec Ideal ⟨2, ![K, N]⟩ .f32) :
    Host.dotGeneral (DotDims.plain M K N) none x w = prod M K N x w :=
  funext fun j => PlainDot.dotGeneral_apply M K N none .single x w j

/-- A `tpu.matmul` of the operands cast to bf16, into the zero accumulator, is the matrix product of the operands. -/
theorem matmulBf16_eq (x : FVec Ideal ⟨2, ![M, K]⟩ .f32) (w : FVec Ideal ⟨2, ![K, N]⟩ .f32)
    (h : FTy.bf16.bits < FTy.f32.bits) :
    matmul (DotDims.plain M K N) none (truncf .bf16 x h) (truncf .bf16 w h) (constant ⟨2, ![M, N]⟩ .f32 0x00000000#32)
      = prod M K N x w :=
  funext fun j => PlainDot.matmul_zero_apply M K N none (truncf .bf16 x h) (truncf .bf16 w h) j

/-- ROW LOCALITY. If row `j 0` of a block `xb` is row `i 0` of `X`, and column `j 1` of `wb` is column `i 1` of `W`,
    the product of the blocks at `j` is the product of the matrices at `i`. -/
theorem prod_rows {Mb Nb : Nat} (X : FVec Ideal ⟨2, ![M, K]⟩ .f32) (W : FVec Ideal ⟨2, ![K, N]⟩ .f32)
    (xb : FVec Ideal ⟨2, ![Mb, K]⟩ .f32) (wb : FVec Ideal ⟨2, ![K, Nb]⟩ .f32)
    (j : (⟨2, ![Mb, Nb]⟩ : Shape).Idx) (i : (⟨2, ![M, N]⟩ : Shape).Idx)
    (hx : ∀ k : Fin K, xb (ix2 (j 0) k) = X (ix2 (i 0) k)) (hw : ∀ k : Fin K, wb (ix2 k (j 1)) = W (ix2 k (i 1))) :
    prod Mb K Nb xb wb j = prod M K N X W i :=
  Finset.sum_congr rfl fun k _ => by rw [hx k, hw k]

/-- A row vector [1, N] added to every row of a matrix [M, N]. -/
def addRow (a : FVec Ideal ⟨2, ![M, N]⟩ .f32) (b : FVec Ideal ⟨2, ![1, N]⟩ .f32) : FVec Ideal ⟨2, ![M, N]⟩ .f32 :=
  fun i => (a i : EReal) + b (ix2 (0 : Fin 1) (i 1))

/-- The kernel's spelling of adding a row vector: the row broadcast along the rows, then an entrywise sum. -/
theorem addf_broadcastTo_eq (a : FVec Ideal ⟨2, ![M, N]⟩ .f32) (b : FVec Ideal ⟨2, ![1, N]⟩ .f32) (hN : N ≠ 1)
    (h : (⟨2, ![1, N]⟩ : Shape).Broadcasts ⟨2, ![M, N]⟩) :
    addf a (broadcastTo ⟨2, ![M, N]⟩ b h) = addRow M N a b := by
  funext i
  show (a i : EReal) + broadcastTo ⟨2, ![M, N]⟩ b h i = (a i : EReal) + b (ix2 (0 : Fin 1) (i 1))
  congr 1
  refine broadcastTo_apply b h i (ix2 (0 : Fin 1) (i 1)) fun a => ?_
  match a with
  | ⟨0, _⟩ => show (0 : Nat) = if (1 : Nat) = 1 then 0 else _; rw [if_pos rfl]
  | ⟨1, _⟩ => show (i 1).val = if N = 1 then 0 else (i 1).val; rw [if_neg hN]

/-- Row locality of `addRow`: an entry of a block of rows plus its bias entry is the whole matrix's entry plus the
    same bias entry, when the two summands agree. -/
theorem addRow_rows {Mb : Nat} (A : FVec Ideal ⟨2, ![M, N]⟩ .f32) (B : FVec Ideal ⟨2, ![1, N]⟩ .f32)
    (ab : FVec Ideal ⟨2, ![Mb, N]⟩ .f32) (bb : FVec Ideal ⟨2, ![1, N]⟩ .f32)
    (j : (⟨2, ![Mb, N]⟩ : Shape).Idx) (i : (⟨2, ![M, N]⟩ : Shape).Idx)
    (ha : ab j = A i) (hb : bb (ix2 (0 : Fin 1) (j 1)) = B (ix2 (0 : Fin 1) (i 1))) :
    addRow Mb N ab bb j = addRow M N A B i := by
  show (ab j : EReal) + bb (ix2 (0 : Fin 1) (j 1)) = (A i : EReal) + B (ix2 (0 : Fin 1) (i 1))
  rw [ha, hb]

/-- The hyperbolic tangent entry by entry: the kernel's operation and the host's are one function. -/
theorem tanh_eq_hostTanh {s : Shape} (x : FVec Ideal s .f32) : tanh x = Host.tanh x := rfl

end RowsProduct

end
-- ==== Proof.KMatmul0.lean ====
/-
  The first launch: the node features times the first weight matrix.

  The launch tiles the 100000 rows of the left matrix over 20 grid points, 5000 rows each; the [128, 128] right matrix is
  the same block at every point.  At a point the body casts both blocks to bf16 (the identity on extended reals),
  multiplies them into a zero accumulator and stores the [5000, 128] product.  An entry of a product reads one row of
  the left factor and one column of the right one, so the block written by point t is rows 5000 t .. 5000 t + 4999 of the
  product of the whole matrices; the 20 blocks cover every row, hence the output array ends holding that product.
-/
import proofs.«174687_j17540646436881_1_alg».proof.Proof.Gen.KernelIdeal.Frame
import proofs.«174687_j17540646436881_1_alg».proof.Proof.LibRowsProduct
import Idealize.ShloMosaic.Lib.Pipeline.Value
import Idealize.ShloMosaic.Lib.ValueIdx

set_option maxRecDepth 16384

noncomputable section

namespace Cert.KernelIdeal.GcnRegions

open Idealize.ShloMosaic Idealize.ShloMosaic.TcCoe Idealize.ShloMosaic.ValueIdx Idealize.SL.Sem
open Idealize.ShloMosaic.Pipeline (Dat Cfg Window)
open Cert.KernelIdeal Cert.KernelIdeal.Gen RowsProduct

theorem zeroOffsets0 : (![0, 0] : Fin 2 → Nat) = fun _ => 0 := funext fun a => by fin_cases a <;> rfl

/-- The body's stored value at an entry of a block is the whole product at the entry the block's position sends it to,
    when the block's row is that row of the left matrix and the block's column that column of the right one. -/
theorem product0_rows (X : FVec Ideal ⟨2, ![100000, 128]⟩ .f32) (W : FVec Ideal ⟨2, ![128, 128]⟩ .f32)
    (xb : Vec Ideal S5000x128 .f32) (wb : Vec Ideal S128x128 .f32) (j : S5000x128.Idx) (i : S100000x128.Idx)
    (hx : ∀ k : Fin 128, xb (ix2 (j 0) k) = X (ix2 (i 0) k)) (hw : ∀ k : Fin 128, wb (ix2 k (j 1)) = W (ix2 k (i 1))) :
    k0_pay1 (F := Ideal) xb wb j = prod 100000 128 128 X W i := by
  have e : k0_pay1 (F := Ideal) xb wb = prod 5000 128 128 xb wb := by
    unfold k0_pay1
    simp only [shapeCast_self]
    exact matmulBf16_eq 5000 128 128 xb wb bitsLt_bf16_f32
  rw [e]
  exact prod_rows 100000 128 128 X W xb wb j i hx hw

/-- The printed index maps over the grid: point t fetches and writes row block t; the right matrix is block (0, 0). -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the product of the two arrays as the launch finds them. -/
theorem written0 (c : Dev nD) (t : Fin cfg0.N) :
    (dat0 V c).flushed 2 t
      = ((cfg0.win 2).blk t).view.read (Elt Ideal) (prod 100000 128 128 (V c main_arg0) (V c main_arg3)) := by
  show (cfg0.win 2).cut (grid0.coords t) ((dat0 V c).after 2 t) = _
  rw [after0_2]
  unfold out0_2
  rw [View.canon_unit_zero zeroOffsets0]
  simp only [View.ld_unit_zero (S := S5000x128) zeroOffsets0, View.ld_unit_zero (S := S128x128) zeroOffsets0]
  obtain ⟨e0, e1, e2, e3, e4, e5⟩ := blockIdx0 t
  funext j
  refine product0_rows (V c main_arg0) (V c main_arg3) (iblk0 V c 0 t) (iblk0 V c 1 t) j (((cfg0.win 2).blk t).view.emb j)
    (fun k => ?_) (fun k => ?_)
  · show V c main_arg0 (((cfg0.win 0).blk t).view.emb (ix2 (j 0) k)) = V c main_arg0 (ix2 ((((cfg0.win 2).blk t).view.emb j) 0) k)
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_arg3 (((cfg0.win 1).blk t).view.emb (ix2 k (j 1))) = V c main_arg3 (ix2 k ((((cfg0.win 2).blk t).view.emb j) 1))
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output array is in point t's block iff each coordinate is in the block's range on its axis. -/
theorem inBlock0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Row r of the output is written by point r / 5000. -/
theorem covered0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hlt : (i 0).val / 5000 < cfg0.N := by rw [show cfg0.N = 20 from N_0]; omega
  refine ⟨⟨(i 0).val / 5000, hlt⟩, flush0_2 _, ?_⟩
  rw [inBlock0]
  obtain ⟨e0, e1, e2, e3, e4, e5⟩ := blockIdx0 ⟨(i 0).val / 5000, hlt⟩
  have e4' : win0_2.index ⟨(i 0).val / 5000, hlt⟩ (0 : Fin 2) = (i 0).val / 5000 := e4
  intro a
  match a with
  | ⟨0, _⟩ => show win0_2.index ⟨(i 0).val / 5000, hlt⟩ (0 : Fin 2) * 5000 ≤ (i 0).val ∧ (i 0).val < win0_2.index ⟨(i 0).val / 5000, hlt⟩ (0 : Fin 2) * 5000 + 5000; omega
  | ⟨1, _⟩ => show win0_2.index ⟨(i 0).val / 5000, hlt⟩ (1 : Fin 2) * 128 ≤ (i 1).val ∧ (i 1).val < win0_2.index ⟨(i 0).val / 5000, hlt⟩ (1 : Fin 2) * 128 + 128; omega

/-- The launch leaves in its output array the product of its two input arrays as it finds them. -/
theorem product0 (c : Dev nD) :
    (dat0 V c).arrAt 2 cfg0.N = prod 100000 128 128 (V c main_arg0) (V c main_arg3) :=
  (dat0 V c).arrAt_eq_of_cover 2 _ (fun t _ => written0 V c t) covered0

end Cert.KernelIdeal.GcnRegions

end
-- ==== Proof.KBias1.lean ====
/-
  The second launch: the first layer's bias and clamp.

  The launch tiles the 100000 node rows over 20 grid points, 5000 rows each; the [1, 128] bias row is the same block at
  every point.  At a point the body adds the bias row to every row of its block and takes max(., 0).  An entry of the
  result reads the same entry of the matrix and the bias entry of its column, so the block written by point t is rows
  5000 t .. 5000 t + 4999 of the whole matrix treated the same way; the 20 blocks cover every row.
-/
import proofs.«174687_j17540646436881_1_alg».proof.Proof.Gen.KernelIdeal.Frame
import proofs.«174687_j17540646436881_1_alg».proof.Proof.LibRowsProduct
import Idealize.ShloMosaic.Lib.Pipeline.Value
import Idealize.ShloMosaic.Lib.ValueIdx

set_option maxRecDepth 16384

noncomputable section

namespace Cert.KernelIdeal.GcnRegions

open Idealize.ShloMosaic Idealize.ShloMosaic.TcCoe Idealize.ShloMosaic.ValueIdx Idealize.SL.Sem
open Idealize.ShloMosaic.Pipeline (Dat Cfg Window)
open Cert.KernelIdeal Cert.KernelIdeal.Gen RowsProduct

theorem zeroOffsets1 : (![0, 0] : Fin 2 → Nat) = fun _ => 0 := funext fun a => by fin_cases a <;> rfl

/-- max(., 0) entry by entry, the zero spelt as the host spells it (a scalar constant broadcast to the matrix). -/
def clampRows1 (y : FVec Ideal S100000x128 .f32) : FVec Ideal S100000x128 .f32 :=
  maximumf y (broadcastInDim S100000x128 ![] bcast_S_S100000x128 (constant S_ .f32 0x00000000#32))

/-- The body's stored value at an entry of a block is the whole matrix plus bias, clamped, at the entry the block's position
    sends it to, when the two entries it reads agree. -/
theorem biased1_rows (A : FVec Ideal ⟨2, ![100000, 128]⟩ .f32) (B : FVec Ideal ⟨2, ![1, 128]⟩ .f32)
    (ab : Vec Ideal S5000x128 .f32) (bb : Vec Ideal S1x128 .f32) (j : S5000x128.Idx) (i : S100000x128.Idx)
    (ha : ab j = A i) (hb : bb (ix2 (0 : Fin 1) (j 1)) = B (ix2 (0 : Fin 1) (i 1))) :
    k1_pay1 (F := Ideal) ab bb j = clampRows1 (addRow 100000 128 A B) i := by
  have e : k1_pay1 (F := Ideal) ab bb
      = maximumf (addRow 5000 128 ab bb) (broadcast S5000x128 (Scalar.ofBits (F := Ideal) .f32 0x00000000#32)) := by
    unfold k1_pay1
    simp only [shapeCast_self]
    exact congrArg (fun v => maximumf v _) (addf_broadcastTo_eq 5000 128 ab bb (by decide) broadcasts_S1x128_S5000x128)
  rw [e]
  unfold clampRows1
  rw [maximumf_apply, maximumf_apply, addRow_rows 100000 128 A B ab bb j i ha hb]
  rfl

/-- The printed index maps over the grid: point t fetches and writes row block t; the bias row is block (0, 0). -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point t writes back is block t of the whole matrix plus bias, clamped. -/
theorem written1 (c : Dev nD) (t : Fin cfg1.N) :
    (dat1 V c).flushed 2 t
      = ((cfg1.win 2).blk t).view.read (Elt Ideal) (clampRows1 (addRow 100000 128 (V c main_v45) (V c main_v46))) := by
  show (cfg1.win 2).cut (grid1.coords t) ((dat1 V c).after 2 t) = _
  rw [after1_2]
  unfold out1_2
  rw [View.canon_unit_zero zeroOffsets1]
  simp only [View.ld_unit_zero (S := S5000x128) zeroOffsets1, View.ld_unit_zero (S := S1x128) zeroOffsets1]
  obtain ⟨e0, e1, e2, e3, e4, e5⟩ := blockIdx1 t
  funext j
  refine biased1_rows (V c main_v45) (V c main_v46) (iblk1 V c 0 t) (iblk1 V c 1 t) j (((cfg1.win 2).blk t).view.emb j) ?_ ?_
  · show V c main_v45 (((cfg1.win 0).blk t).view.emb j) = V c main_v45 (((cfg1.win 2).blk t).view.emb j)
    refine congrArg _ (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  · show V c main_v46 (((cfg1.win 1).blk t).view.emb (ix2 (0 : Fin 1) (j 1))) = V c main_v46 (ix2 (0 : Fin 1) ((((cfg1.win 2).blk t).view.emb j) 1))
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega

/-- An index of the output array is in point t's block iff each coordinate is in the block's range on its axis. -/
theorem inBlock1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- Row r of the output is written by point r / 5000. -/
theorem covered1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hlt : (i 0).val / 5000 < cfg1.N := by rw [show cfg1.N = 20 from N_1]; omega
  refine ⟨⟨(i 0).val / 5000, hlt⟩, flush1_2 _, ?_⟩
  rw [inBlock1]
  obtain ⟨e0, e1, e2, e3, e4, e5⟩ := blockIdx1 ⟨(i 0).val / 5000, hlt⟩
  have e4' : win1_2.index ⟨(i 0).val / 5000, hlt⟩ (0 : Fin 2) = (i 0).val / 5000 := e4
  intro a
  match a with
  | ⟨0, _⟩ => show win1_2.index ⟨(i 0).val / 5000, hlt⟩ (0 : Fin 2) * 5000 ≤ (i 0).val ∧ (i 0).val < win1_2.index ⟨(i 0).val / 5000, hlt⟩ (0 : Fin 2) * 5000 + 5000; omega
  | ⟨1, _⟩ => show win1_2.index ⟨(i 0).val / 5000, hlt⟩ (1 : Fin 2) * 128 ≤ (i 1).val ∧ (i 1).val < win1_2.index ⟨(i 0).val / 5000, hlt⟩ (1 : Fin 2) * 128 + 128; omega

/-- The launch leaves in its output array its input matrix plus the bias row, clamped at 0. -/
theorem biased1 (c : Dev nD) :
    (dat1 V c).arrAt 2 cfg1.N = clampRows1 (addRow 100000 128 (V c main_v45) (V c main_v46)) :=
  (dat1 V c).arrAt_eq_of_cover 2 _ (fun t _ => written1 V c t) covered1

end Cert.KernelIdeal.GcnRegions

end
-- ==== Proof.KMatmul2.lean ====
/-
  The third launch: the first layer's output times the second weight matrix.

  The launch tiles the 100000 rows of the left matrix over 20 grid points, 5000 rows each; the [128, 128] right matrix is
  the same block at every point.  At a point the body casts both blocks to bf16 (the identity on extended reals),
  multiplies them into a zero accumulator and stores the [5000, 128] product.  An entry of a product reads one row of
  the left factor and one column of the right one, so the block written by point t is rows 5000 t .. 5000 t + 4999 of the
  product of the whole matrices; the 20 blocks cover every row, hence the output array ends holding that product.
-/
import proofs.«174687_j17540646436881_1_alg».proof.Proof.Gen.KernelIdeal.Frame
import proofs.«174687_j17540646436881_1_alg».proof.Proof.LibRowsProduct
import Idealize.ShloMosaic.Lib.Pipeline.Value
import Idealize.ShloMosaic.Lib.ValueIdx

set_option maxRecDepth 16384

noncomputable section

namespace Cert.KernelIdeal.GcnRegions

open Idealize.ShloMosaic Idealize.ShloMosaic.TcCoe Idealize.ShloMosaic.ValueIdx Idealize.SL.Sem
open Idealize.ShloMosaic.Pipeline (Dat Cfg Window)
open Cert.KernelIdeal Cert.KernelIdeal.Gen RowsProduct

theorem zeroOffsets2 : (![0, 0] : Fin 2 → Nat) = fun _ => 0 := funext fun a => by fin_cases a <;> rfl

/-- The body's stored value at an entry of a block is the whole product at the entry the block's position sends it to,
    when the block's row is that row of the left matrix and the block's column that column of the right one. -/
theorem product2_rows (X : FVec Ideal ⟨2, ![100000, 128]⟩ .f32) (W : FVec Ideal ⟨2, ![128, 128]⟩ .f32)
    (xb : Vec Ideal S5000x128 .f32) (wb : Vec Ideal S128x128 .f32) (j : S5000x128.Idx) (i : S100000x128.Idx)
    (hx : ∀ k : Fin 128, xb (ix2 (j 0) k) = X (ix2 (i 0) k)) (hw : ∀ k : Fin 128, wb (ix2 k (j 1)) = W (ix2 k (i 1))) :
    k2_pay1 (F := Ideal) xb wb j = prod 100000 128 128 X W i := by
  have e : k2_pay1 (F := Ideal) xb wb = prod 5000 128 128 xb wb := by
    unfold k2_pay1
    simp only [shapeCast_self]
    exact matmulBf16_eq 5000 128 128 xb wb bitsLt_bf16_f32
  rw [e]
  exact prod_rows 100000 128 128 X W xb wb j i hx hw

/-- The printed index maps over the grid: point t fetches and writes row block t; the right matrix is block (0, 0). -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point t writes back is block t of the product of the two arrays as the launch finds them. -/
theorem written2 (c : Dev nD) (t : Fin cfg2.N) :
    (dat2 V c).flushed 2 t
      = ((cfg2.win 2).blk t).view.read (Elt Ideal) (prod 100000 128 128 (V c main_v47) (V c main_arg5)) := by
  show (cfg2.win 2).cut (grid2.coords t) ((dat2 V c).after 2 t) = _
  rw [after2_2]
  unfold out2_2
  rw [View.canon_unit_zero zeroOffsets2]
  simp only [View.ld_unit_zero (S := S5000x128) zeroOffsets2, View.ld_unit_zero (S := S128x128) zeroOffsets2]
  obtain ⟨e0, e1, e2, e3, e4, e5⟩ := blockIdx2 t
  funext j
  refine product2_rows (V c main_v47) (V c main_arg5) (iblk2 V c 0 t) (iblk2 V c 1 t) j (((cfg2.win 2).blk t).view.emb j)
    (fun k => ?_) (fun k => ?_)
  · show V c main_v47 (((cfg2.win 0).blk t).view.emb (ix2 (j 0) k)) = V c main_v47 (ix2 ((((cfg2.win 2).blk t).view.emb j) 0) k)
    refine congrArg _ (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · show V c main_arg5 (((cfg2.win 1).blk t).view.emb (ix2 k (j 1))) = V c main_arg5 (ix2 k ((((cfg2.win 2).blk t).view.emb j) 1))
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- An index of the output array is in point t's block iff each coordinate is in the block's range on its axis. -/
theorem inBlock2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v48).slice (win2_2.rect t)).set ↔ _
  rw [View.set_slice_whole, Rect.mem_set_unit]
  exact Iff.rfl

/-- Row r of the output is written by point r / 5000. -/
theorem covered2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hlt : (i 0).val / 5000 < cfg2.N := by rw [show cfg2.N = 20 from N_2]; omega
  refine ⟨⟨(i 0).val / 5000, hlt⟩, flush2_2 _, ?_⟩
  rw [inBlock2]
  obtain ⟨e0, e1, e2, e3, e4, e5⟩ := blockIdx2 ⟨(i 0).val / 5000, hlt⟩
  have e4' : win2_2.index ⟨(i 0).val / 5000, hlt⟩ (0 : Fin 2) = (i 0).val / 5000 := e4
  intro a
  match a with
  | ⟨0, _⟩ => show win2_2.index ⟨(i 0).val / 5000, hlt⟩ (0 : Fin 2) * 5000 ≤ (i 0).val ∧ (i 0).val < win2_2.index ⟨(i 0).val / 5000, hlt⟩ (0 : Fin 2) * 5000 + 5000; omega
  | ⟨1, _⟩ => show win2_2.index ⟨(i 0).val / 5000, hlt⟩ (1 : Fin 2) * 128 ≤ (i 1).val ∧ (i 1).val < win2_2.index ⟨(i 0).val / 5000, hlt⟩ (1 : Fin 2) * 128 + 128; omega

/-- The launch leaves in its output array the product of its two input arrays as it finds them. -/
theorem product2 (c : Dev nD) :
    (dat2 V c).arrAt 2 cfg2.N = prod 100000 128 128 (V c main_v47) (V c main_arg5) :=
  (dat2 V c).arrAt_eq_of_cover 2 _ (fun t _ => written2 V c t) covered2

end Cert.KernelIdeal.GcnRegions

end
-- ==== Proof.KBias3.lean ====
/-
  The fourth launch: the second layer's bias and clamp.

  The launch tiles the 100000 node rows over 20 grid points, 5000 rows each; the [1, 128] bias row is the same block at
  every point.  At a point the body adds the bias row to every row of its block and takes max(., 0).  An entry of the
  result reads the same entry of the matrix and the bias entry of its column, so the block written by point t is rows
  5000 t .. 5000 t + 4999 of the whole matrix treated the same way; the 20 blocks cover every row.
-/
import proofs.«174687_j17540646436881_1_alg».proof.Proof.Gen.KernelIdeal.Frame
import proofs.«174687_j17540646436881_1_alg».proof.Proof.LibRowsProduct
import Idealize.ShloMosaic.Lib.Pipeline.Value
import Idealize.ShloMosaic.Lib.ValueIdx

set_option maxRecDepth 16384

noncomputable section

namespace Cert.KernelIdeal.GcnRegions

open Idealize.ShloMosaic Idealize.ShloMosaic.TcCoe Idealize.ShloMosaic.ValueIdx Idealize.SL.Sem
open Idealize.ShloMosaic.Pipeline (Dat Cfg Window)
open Cert.KernelIdeal Cert.KernelIdeal.Gen RowsProduct

theorem zeroOffsets3 : (![0, 0] : Fin 2 → Nat) = fun _ => 0 := funext fun a => by fin_cases a <;> rfl

/-- max(., 0) entry by entry, the zero spelt as the host spells it (a scalar constant broadcast to the matrix). -/
def clampRows3 (y : FVec Ideal S100000x128 .f32) : FVec Ideal S100000x128 .f32 :=
  maximumf y (broadcastInDim S100000x128 ![] bcast_S_S100000x128 (constant S_ .f32 0x00000000#32))

/-- The body's stored value at an entry of a block is the whole matrix plus bias, clamped, at the entry the block's position
    sends it to, when the two entries it reads agree. -/
theorem biased3_rows (A : FVec Ideal ⟨2, ![100000, 128]⟩ .f32) (B : FVec Ideal ⟨2, ![1, 128]⟩ .f32)
    (ab : Vec Ideal S5000x128 .f32) (bb : Vec Ideal S1x128 .f32) (j : S5000x128.Idx) (i : S100000x128.Idx)
    (ha : ab j = A i) (hb : bb (ix2 (0 : Fin 1) (j 1)) = B (ix2 (0 : Fin 1) (i 1))) :
    k3_pay1 (F := Ideal) ab bb j = clampRows3 (addRow 100000 128 A B) i := by
  have e : k3_pay1 (F := Ideal) ab bb
      = maximumf (addRow 5000 128 ab bb) (broadcast S5000x128 (Scalar.ofBits (F := Ideal) .f32 0x00000000#32)) := by
    unfold k3_pay1
    simp only [shapeCast_self]
    exact congrArg (fun v => maximumf v _) (addf_broadcastTo_eq 5000 128 ab bb (by decide) broadcasts_S1x128_S5000x128)
  rw [e]
  unfold clampRows3
  rw [maximumf_apply, maximumf_apply, addRow_rows 100000 128 A B ab bb j i ha hb]
  rfl

/-- The printed index maps over the grid: point t fetches and writes row block t; the bias row is block (0, 0). -/
theorem blockIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- What point t writes back is block t of the whole matrix plus bias, clamped. -/
theorem written3 (c : Dev nD) (t : Fin cfg3.N) :
    (dat3 V c).flushed 2 t
      = ((cfg3.win 2).blk t).view.read (Elt Ideal) (clampRows3 (addRow 100000 128 (V c main_v61) (V c main_v62))) := by
  show (cfg3.win 2).cut (grid3.coords t) ((dat3 V c).after 2 t) = _
  rw [after3_2]
  unfold out3_2
  rw [View.canon_unit_zero zeroOffsets3]
  simp only [View.ld_unit_zero (S := S5000x128) zeroOffsets3, View.ld_unit_zero (S := S1x128) zeroOffsets3]
  obtain ⟨e0, e1, e2, e3, e4, e5⟩ := blockIdx3 t
  funext j
  refine biased3_rows (V c main_v61) (V c main_v62) (iblk3 V c 0 t) (iblk3 V c 1 t) j (((cfg3.win 2).blk t).view.emb j) ?_ ?_
  · show V c main_v61 (((cfg3.win 0).blk t).view.emb j) = V c main_v61 (((cfg3.win 2).blk t).view.emb j)
    refine congrArg _ (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  · show V c main_v62 (((cfg3.win 1).blk t).view.emb (ix2 (0 : Fin 1) (j 1))) = V c main_v62 (ix2 (0 : Fin 1) ((((cfg3.win 2).blk t).view.emb j) 1))
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega

/-- An index of the output array is in point t's block iff each coordinate is in the block's range on its axis. -/
theorem inBlock3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v63).slice (win3_2.rect t)).set ↔ _
  rw [View.set_slice_whole, Rect.mem_set_unit]
  exact Iff.rfl

/-- Row r of the output is written by point r / 5000. -/
theorem covered3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hlt : (i 0).val / 5000 < cfg3.N := by rw [show cfg3.N = 20 from N_3]; omega
  refine ⟨⟨(i 0).val / 5000, hlt⟩, flush3_2 _, ?_⟩
  rw [inBlock3]
  obtain ⟨e0, e1, e2, e3, e4, e5⟩ := blockIdx3 ⟨(i 0).val / 5000, hlt⟩
  have e4' : win3_2.index ⟨(i 0).val / 5000, hlt⟩ (0 : Fin 2) = (i 0).val / 5000 := e4
  intro a
  match a with
  | ⟨0, _⟩ => show win3_2.index ⟨(i 0).val / 5000, hlt⟩ (0 : Fin 2) * 5000 ≤ (i 0).val ∧ (i 0).val < win3_2.index ⟨(i 0).val / 5000, hlt⟩ (0 : Fin 2) * 5000 + 5000; omega
  | ⟨1, _⟩ => show win3_2.index ⟨(i 0).val / 5000, hlt⟩ (1 : Fin 2) * 128 ≤ (i 1).val ∧ (i 1).val < win3_2.index ⟨(i 0).val / 5000, hlt⟩ (1 : Fin 2) * 128 + 128; omega

/-- The launch leaves in its output array its input matrix plus the bias row, clamped at 0. -/
theorem biased3 (c : Dev nD) :
    (dat3 V c).arrAt 2 cfg3.N = clampRows3 (addRow 100000 128 (V c main_v61) (V c main_v62)) :=
  (dat3 V c).arrAt_eq_of_cover 2 _ (fun t _ => written3 V c t) covered3

end Cert.KernelIdeal.GcnRegions

end
-- ==== Proof.KMatmul4.lean ====
/-
  The fifth launch: the second layer's output times the third weight matrix.

  The launch tiles the 100000 rows of the left matrix over 20 grid points, 5000 rows each; the [128, 128] right matrix is
  the same block at every point.  At a point the body casts both blocks to bf16 (the identity on extended reals),
  multiplies them into a zero accumulator and stores the [5000, 128] product.  An entry of a product reads one row of
  the left factor and one column of the right one, so the block written by point t is rows 5000 t .. 5000 t + 4999 of the
  product of the whole matrices; the 20 blocks cover every row, hence the output array ends holding that product.
-/
import proofs.«174687_j17540646436881_1_alg».proof.Proof.Gen.KernelIdeal.Frame
import proofs.«174687_j17540646436881_1_alg».proof.Proof.LibRowsProduct
import Idealize.ShloMosaic.Lib.Pipeline.Value
import Idealize.ShloMosaic.Lib.ValueIdx

set_option maxRecDepth 16384

noncomputable section

namespace Cert.KernelIdeal.GcnRegions

open Idealize.ShloMosaic Idealize.ShloMosaic.TcCoe Idealize.ShloMosaic.ValueIdx Idealize.SL.Sem
open Idealize.ShloMosaic.Pipeline (Dat Cfg Window)
open Cert.KernelIdeal Cert.KernelIdeal.Gen RowsProduct

theorem zeroOffsets4 : (![0, 0] : Fin 2 → Nat) = fun _ => 0 := funext fun a => by fin_cases a <;> rfl

/-- The body's stored value at an entry of a block is the whole product at the entry the block's position sends it to,
    when the block's row is that row of the left matrix and the block's column that column of the right one. -/
theorem product4_rows (X : FVec Ideal ⟨2, ![100000, 128]⟩ .f32) (W : FVec Ideal ⟨2, ![128, 128]⟩ .f32)
    (xb : Vec Ideal S5000x128 .f32) (wb : Vec Ideal S128x128 .f32) (j : S5000x128.Idx) (i : S100000x128.Idx)
    (hx : ∀ k : Fin 128, xb (ix2 (j 0) k) = X (ix2 (i 0) k)) (hw : ∀ k : Fin 128, wb (ix2 k (j 1)) = W (ix2 k (i 1))) :
    k4_pay1 (F := Ideal) xb wb j = prod 100000 128 128 X W i := by
  have e : k4_pay1 (F := Ideal) xb wb = prod 5000 128 128 xb wb := by
    unfold k4_pay1
    simp only [shapeCast_self]
    exact matmulBf16_eq 5000 128 128 xb wb bitsLt_bf16_f32
  rw [e]
  exact prod_rows 100000 128 128 X W xb wb j i hx hw

/-- The printed index maps over the grid: point t fetches and writes row block t; the right matrix is block (0, 0). -/
theorem blockIdx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

/-- What point t writes back is block t of the product of the two arrays as the launch finds them. -/
theorem written4 (c : Dev nD) (t : Fin cfg4.N) :
    (dat4 V c).flushed 2 t
      = ((cfg4.win 2).blk t).view.read (Elt Ideal) (prod 100000 128 128 (V c main_v63) (V c main_arg7)) := by
  show (cfg4.win 2).cut (grid4.coords t) ((dat4 V c).after 2 t) = _
  rw [after4_2]
  unfold out4_2
  rw [View.canon_unit_zero zeroOffsets4]
  simp only [View.ld_unit_zero (S := S5000x128) zeroOffsets4, View.ld_unit_zero (S := S128x128) zeroOffsets4]
  obtain ⟨e0, e1, e2, e3, e4, e5⟩ := blockIdx4 t
  funext j
  refine product4_rows (V c main_v63) (V c main_arg7) (iblk4 V c 0 t) (iblk4 V c 1 t) j (((cfg4.win 2).blk t).view.emb j)
    (fun k => ?_) (fun k => ?_)
  · show V c main_v63 (((cfg4.win 0).blk t).view.emb (ix2 (j 0) k)) = V c main_v63 (ix2 ((((cfg4.win 2).blk t).view.emb j) 0) k)
    refine congrArg _ (funext fun a => Fin.ext ?_)
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  · show V c main_arg7 (((cfg4.win 1).blk t).view.emb (ix2 k (j 1))) = V c main_arg7 (ix2 k ((((cfg4.win 2).blk t).view.emb j) 1))
    refine congrArg _ (funext fun a => Fin.ext ?_)
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega

/-- An index of the output array is in point t's block iff each coordinate is in the block's range on its axis. -/
theorem inBlock4 (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v64).slice (win4_2.rect t)).set ↔ _
  rw [View.set_slice_whole, Rect.mem_set_unit]
  exact Iff.rfl

/-- Row r of the output is written by point r / 5000. -/
theorem covered4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hlt : (i 0).val / 5000 < cfg4.N := by rw [show cfg4.N = 20 from N_4]; omega
  refine ⟨⟨(i 0).val / 5000, hlt⟩, flush4_2 _, ?_⟩
  rw [inBlock4]
  obtain ⟨e0, e1, e2, e3, e4, e5⟩ := blockIdx4 ⟨(i 0).val / 5000, hlt⟩
  have e4' : win4_2.index ⟨(i 0).val / 5000, hlt⟩ (0 : Fin 2) = (i 0).val / 5000 := e4
  intro a
  match a with
  | ⟨0, _⟩ => show win4_2.index ⟨(i 0).val / 5000, hlt⟩ (0 : Fin 2) * 5000 ≤ (i 0).val ∧ (i 0).val < win4_2.index ⟨(i 0).val / 5000, hlt⟩ (0 : Fin 2) * 5000 + 5000; omega
  | ⟨1, _⟩ => show win4_2.index ⟨(i 0).val / 5000, hlt⟩ (1 : Fin 2) * 128 ≤ (i 1).val ∧ (i 1).val < win4_2.index ⟨(i 0).val / 5000, hlt⟩ (1 : Fin 2) * 128 + 128; omega

/-- The launch leaves in its output array the product of its two input arrays as it finds them. -/
theorem product4 (c : Dev nD) :
    (dat4 V c).arrAt 2 cfg4.N = prod 100000 128 128 (V c main_v63) (V c main_arg7) :=
  (dat4 V c).arrAt_eq_of_cover 2 _ (fun t _ => written4 V c t) covered4

end Cert.KernelIdeal.GcnRegions

end
-- ==== Proof.KBias5.lean ====
/-
  The sixth launch: the third layer's bias.

  The launch tiles the 100000 node rows over 20 grid points, 5000 rows each; the [1, 128] bias row is the same block at
  every point.  At a point the body adds the bias row to every row of its block.  An entry of the
  result reads the same entry of the matrix and the bias entry of its column, so the block written by point t is rows
  5000 t .. 5000 t + 4999 of the whole matrix treated the same way; the 20 blocks cover every row.
-/
import proofs.«174687_j17540646436881_1_alg».proof.Proof.Gen.KernelIdeal.Frame
import proofs.«174687_j17540646436881_1_alg».proof.Proof.LibRowsProduct
import Idealize.ShloMosaic.Lib.Pipeline.Value
import Idealize.ShloMosaic.Lib.ValueIdx

set_option maxRecDepth 16384

noncomputable section

namespace Cert.KernelIdeal.GcnRegions

open Idealize.ShloMosaic Idealize.ShloMosaic.TcCoe Idealize.ShloMosaic.ValueIdx Idealize.SL.Sem
open Idealize.ShloMosaic.Pipeline (Dat Cfg Window)
open Cert.KernelIdeal Cert.KernelIdeal.Gen RowsProduct

theorem zeroOffsets5 : (![0, 0] : Fin 2 → Nat) = fun _ => 0 := funext fun a => by fin_cases a <;> rfl

/-- The last layer has no max(., 0). -/
def clampRows5 (y : FVec Ideal S100000x128 .f32) : FVec Ideal S100000x128 .f32 := y

/-- The body's stored value at an entry of a block is the whole matrix plus bias at the entry the block's position
    sends it to, when the two entries it reads agree. -/
theorem biased5_rows (A : FVec Ideal ⟨2, ![100000, 128]⟩ .f32) (B : FVec Ideal ⟨2, ![1, 128]⟩ .f32)
    (ab : Vec Ideal S5000x128 .f32) (bb : Vec Ideal S1x128 .f32) (j : S5000x128.Idx) (i : S100000x128.Idx)
    (ha : ab j = A i) (hb : bb (ix2 (0 : Fin 1) (j 1)) = B (ix2 (0 : Fin 1) (i 1))) :
    k5_pay1 (F := Ideal) ab bb j = clampRows5 (addRow 100000 128 A B) i := by
  have e : k5_pay1 (F := Ideal) ab bb = addRow 5000 128 ab bb := by
    unfold k5_pay1
    simp only [shapeCast_self]
    exact addf_broadcastTo_eq 5000 128 ab bb (by decide) broadcasts_S1x128_S5000x128
  rw [e]
  unfold clampRows5
  exact addRow_rows 100000 128 A B ab bb j i ha hb

/-- The printed index maps over the grid: point t fetches and writes row block t; the bias row is block (0, 0). -/
theorem blockIdx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

variable (V : (c : Dev nD) → (b : Ref sig .tc) → Buf (Elt Ideal) ((c : Thread nD τ).loc b))

/-- What point t writes back is block t of the whole matrix plus bias. -/
theorem written5 (c : Dev nD) (t : Fin cfg5.N) :
    (dat5 V c).flushed 2 t
      = ((cfg5.win 2).blk t).view.read (Elt Ideal) (clampRows5 (addRow 100000 128 (V c main_v77) (V c main_v78))) := by
  show (cfg5.win 2).cut (grid5.coords t) ((dat5 V c).after 2 t) = _
  rw [after5_2]
  unfold out5_2
  rw [View.canon_unit_zero zeroOffsets5]
  simp only [View.ld_unit_zero (S := S5000x128) zeroOffsets5, View.ld_unit_zero (S := S1x128) zeroOffsets5]
  obtain ⟨e0, e1, e2, e3, e4, e5⟩ := blockIdx5 t
  funext j
  refine biased5_rows (V c main_v77) (V c main_v78) (iblk5 V c 0 t) (iblk5 V c 1 t) j (((cfg5.win 2).blk t).view.emb j) ?_ ?_
  · show V c main_v77 (((cfg5.win 0).blk t).view.emb j) = V c main_v77 (((cfg5.win 2).blk t).view.emb j)
    refine congrArg _ (funext fun a => Fin.ext ?_)
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 128 + 1 * (j 1).val = win5_2.index t (1 : Fin 2) * 128 + 1 * (j 1).val; omega
  · show V c main_v78 (((cfg5.win 1).blk t).view.emb (ix2 (0 : Fin 1) (j 1))) = V c main_v78 (ix2 (0 : Fin 1) ((((cfg5.win 2).blk t).view.emb j) 1))
    refine congrArg _ (funext fun a => Fin.ext ?_)
    match a with
    | ⟨0, _⟩ => show win5_1.index t (0 : Fin 2) * 1 + 1 * 0 = 0; omega
    | ⟨1, _⟩ => show win5_1.index t (1 : Fin 2) * 128 + 1 * (j 1).val = win5_2.index t (1 : Fin 2) * 128 + 1 * (j 1).val; omega

/-- An index of the output array is in point t's block iff each coordinate is in the block's range on its axis. -/
theorem inBlock5 (t : Fin cfg5.N) (i : S100000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v79).slice (win5_2.rect t)).set ↔ _
  rw [View.set_slice_whole, Rect.mem_set_unit]
  exact Iff.rfl

/-- Row r of the output is written by point r / 5000. -/
theorem covered5 (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  have hlt : (i 0).val / 5000 < cfg5.N := by rw [show cfg5.N = 20 from N_5]; omega
  refine ⟨⟨(i 0).val / 5000, hlt⟩, flush5_2 _, ?_⟩
  rw [inBlock5]
  obtain ⟨e0, e1, e2, e3, e4, e5⟩ := blockIdx5 ⟨(i 0).val / 5000, hlt⟩
  have e4' : win5_2.index ⟨(i 0).val / 5000, hlt⟩ (0 : Fin 2) = (i 0).val / 5000 := e4
  intro a
  match a with
  | ⟨0, _⟩ => show win5_2.index ⟨(i 0).val / 5000, hlt⟩ (0 : Fin 2) * 5000 ≤ (i 0).val ∧ (i 0).val < win5_2.index ⟨(i 0).val / 5000, hlt⟩ (0 : Fin 2) * 5000 + 5000; omega
  | ⟨1, _⟩ => show win5_2.index ⟨(i 0).val / 5000, hlt⟩ (1 : Fin 2) * 128 ≤ (i 1).val ∧ (i 1).val < win5_2.index ⟨(i 0).val / 5000, hlt⟩ (1 : Fin 2) * 128 + 128; omega

/-- The launch leaves in its output array its input matrix plus the bias row. -/
theorem biased5 (c : Dev nD) :
    (dat5 V c).arrAt 2 cfg5.N = clampRows5 (addRow 100000 128 (V c main_v77) (V c main_v78)) :=
  (dat5 V c).arrAt_eq_of_cover 2 _ (fun t _ => written5 V c t) covered5

end Cert.KernelIdeal.GcnRegions

end
-- ==== Proof.Spec.lean ====
/-
  A three-layer graph convolution as one function of its arguments.

  The graph has 100000 nodes and 1600000 weighted edges given as a [2, 1600000] table (row 0: source node, row 1:
  destination node). Every node gets a self loop of weight 1, so there are 1700000 edges: `srcIdx`, `dstIdx` and
  `weights` are the three edge lists with the self loops appended.  The degree of a node is the sum of the weights of
  the edges that arrive at it; `invSqrtDeg` is degree^(-1/2) where the degree is positive and 0 elsewhere; the
  normalised weight of an edge (`edgeNorm`) is invSqrtDeg(source) * weight * invSqrtDeg(destination).
  One layer sends the node features x [100000, 128] to

      addBias (aggregate (linear x W)) b,      aggregate y (n, :) = sum over edges e into n of norm e * y (source e, :)

  and the network is three layers with max(., 0) between them.  A negative index is wrapped once by the number of
  nodes (`wrapIdx`) before a row is looked up; an index still outside the table is clamped by the lookup and dropped
  by the sum into the destination, and both programs compared here use these same two operations on the same
  indices, so the edge table is never assumed to be in range.

  Every definition is a composition of the array operations themselves, so that a program's result can be compared with
  it by unfolding alone.
-/
import proofs.«174687_j17540646436881_1_alg».proof.Proof.Gen.ReferenceIdeal
import Idealize.ShloMosaic.PureOps.Ideal

noncomputable section

namespace Cert.Gcn

open Idealize.ShloMosaic Cert.ReferenceIdeal Cert.ReferenceIdeal.Gen

variable {F : FTy → Type} [FloatOps F]

/-- The source node of every edge: row 0 of the edge table, then the self loops 0, 1, ..., 99999. -/
def srcIdx (ei : (⟨S2x1600000, .i32⟩ : BufTy).Contents (Elt F)) : (⟨S1700000, .i32⟩ : BufTy).Contents (Elt F) :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The destination node of every edge: row 1 of the edge table, then the self loops. -/
def dstIdx (ei : (⟨S2x1600000, .i32⟩ : BufTy).Contents (Elt F)) : (⟨S1700000, .i32⟩ : BufTy).Contents (Elt F) :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- The weight of every edge: the given weights, then 1 for each self loop. -/
def weights (ew : (⟨S1600000, .f32⟩ : BufTy).Contents (Elt F)) : (⟨S1700000, .f32⟩ : BufTy).Contents (Elt F) :=
  concatenate S1700000 0 [⟨S1600000, ew⟩, ⟨S100000, (broadcastInDim S100000 ![] bcast_S_S100000 (constant S_ .f32 0x3F800000#32))⟩] concatenates_S1600000_S100000_S1700000_d0

/-- A list of node indices as a column of lookup positions, a negative index wrapped once by the number of nodes. -/
def wrapIdx (v : (⟨S1700000, .i32⟩ : BufTy).Contents (Elt F)) : (⟨S1700000x1, .i32⟩ : BufTy).Contents (Elt F) :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- The degree of every node: the sum of the weights of the edges arriving at it. -/
def degree (cl : (⟨S1700000, .i32⟩ : BufTy).Contents (Elt F)) (ewf : (⟨S1700000, .f32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 cl) ewf

/-- degree^(-1/2) where the degree is positive, 0 elsewhere. -/
def invSqrtDeg (cl : (⟨S1700000, .i32⟩ : BufTy).Contents (Elt F)) (ewf : (⟨S1700000, .f32⟩ : BufTy).Contents (Elt F)) : (⟨S100000, .f32⟩ : BufTy).Contents (Elt F) :=
  select (cmpf .ogt (degree cl ewf) (broadcastInDim S100000 ![] bcast_S_S100000 (constant S_ .f32 0x00000000#32))) (Host.rsqrt (degree cl ewf)) (broadcastInDim S100000 ![] bcast_S_S100000 (id (constant S_ .f32 0x00000000#32)))

/-- The normalised weight of every edge: invSqrtDeg(source) * weight * invSqrtDeg(destination). -/
def edgeNorm (r cl : (⟨S1700000, .i32⟩ : BufTy).Contents (Elt F)) (ewf : (⟨S1700000, .f32⟩ : BufTy).Contents (Elt F)) : (⟨S1700000, .f32⟩ : BufTy).Contents (Elt F) :=
  mulf (mulf (Host.gather gather_S100000_S1700000x1_S1700000_n_0_n_n_0_1_1 (invSqrtDeg cl ewf) (wrapIdx r)) ewf) (Host.gather gather_S100000_S1700000x1_S1700000_n_0_n_n_0_1_1 (invSqrtDeg cl ewf) (wrapIdx cl))

/-- Every node receives, from each edge arriving at it, the source node's row scaled by the edge's normalised weight. -/
def aggregate (r cl : (⟨S1700000, .i32⟩ : BufTy).Contents (Elt F)) (nm : (⟨S1700000, .f32⟩ : BufTy).Contents (Elt F)) (xw : (⟨S100000x128, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 cl) (mulf (Host.gather gather_S100000x128_S1700000x1_S1700000x128_1_0_n_n_0_1_1128 xw (wrapIdx r)) (broadcastInDim S1700000x128 ![0, 1] bcast_S1700000x1_S1700000x128_0_1 (broadcastInDim S1700000x1 ![0] bcast_S1700000_S1700000x1_0 nm)))

/-- The node features times a [128, 128] weight matrix. -/
def linear (x : (⟨S100000x128, .f32⟩ : BufTy).Contents (Elt F)) (W : (⟨S128x128, .f32⟩ : BufTy).Contents (Elt F)) : (⟨S100000x128, .f32⟩ : BufTy).Contents (Elt F) :=
  Host.dotGeneral dot_S100000x128_S128x128_S100000x128_1_0_0_1_n_n none x W

/-- A bias vector of 128 entries added to every node's row. -/
def addBias (y : (⟨S100000x128, .f32⟩ : BufTy).Contents (Elt F)) (b : (⟨S128, .f32⟩ : BufTy).Contents (Elt F)) : (⟨S100000x128, .f32⟩ : BufTy).Contents (Elt F) :=
  addf y (broadcastInDim S100000x128 ![0, 1] bcast_S1x128_S100000x128_0_1 (broadcastInDim S1x128 ![1] bcast_S128_S1x128_1 b))

/-- max(., 0) entry by entry. -/
def relu (y : (⟨S100000x128, .f32⟩ : BufTy).Contents (Elt F)) : (⟨S100000x128, .f32⟩ : BufTy).Contents (Elt F) :=
  maximumf y (broadcastInDim S100000x128 ![] bcast_S_S100000x128 (constant S_ .f32 0x00000000#32))

/-- One layer: a linear map of the features, the aggregation over the edges, the bias. -/
def layer (r cl : (⟨S1700000, .i32⟩ : BufTy).Contents (Elt F)) (nm : (⟨S1700000, .f32⟩ : BufTy).Contents (Elt F)) (x : (⟨S100000x128, .f32⟩ : BufTy).Contents (Elt F)) (W : (⟨S128x128, .f32⟩ : BufTy).Contents (Elt F)) (b : (⟨S128, .f32⟩ : BufTy).Contents (Elt F)) : (⟨S100000x128, .f32⟩ : BufTy).Contents (Elt F) :=
  addBias (aggregate r cl nm (linear x W)) b

/-- The three layers over given edge lists and normalised weights. -/
def layers (r cl : (⟨S1700000, .i32⟩ : BufTy).Contents (Elt F)) (nm : (⟨S1700000, .f32⟩ : BufTy).Contents (Elt F)) (x : (⟨S100000x128, .f32⟩ : BufTy).Contents (Elt F))
    (W1 : (⟨S128x128, .f32⟩ : BufTy).Contents (Elt F)) (b1 : (⟨S128, .f32⟩ : BufTy).Contents (Elt F)) (W2 : (⟨S128x128, .f32⟩ : BufTy).Contents (Elt F)) (b2 : (⟨S128, .f32⟩ : BufTy).Contents (Elt F))
    (W3 : (⟨S128x128, .f32⟩ : BufTy).Contents (Elt F)) (b3 : (⟨S128, .f32⟩ : BufTy).Contents (Elt F)) : (⟨S100000x128, .f32⟩ : BufTy).Contents (Elt F) :=
  layer r cl nm (relu (layer r cl nm (relu (layer r cl nm x W1 b1)) W2 b2)) W3 b3

/-- The network as a function of its nine arguments. -/
def gcn (x : (⟨S100000x128, .f32⟩ : BufTy).Contents (Elt F)) (ei : (⟨S2x1600000, .i32⟩ : BufTy).Contents (Elt F)) (ew : (⟨S1600000, .f32⟩ : BufTy).Contents (Elt F))
    (W1 : (⟨S128x128, .f32⟩ : BufTy).Contents (Elt F)) (b1 : (⟨S128, .f32⟩ : BufTy).Contents (Elt F)) (W2 : (⟨S128x128, .f32⟩ : BufTy).Contents (Elt F)) (b2 : (⟨S128, .f32⟩ : BufTy).Contents (Elt F))
    (W3 : (⟨S128x128, .f32⟩ : BufTy).Contents (Elt F)) (b3 : (⟨S128, .f32⟩ : BufTy).Contents (Elt F)) : (⟨S100000x128, .f32⟩ : BufTy).Contents (Elt F) :=
  layers (srcIdx ei) (dstIdx ei) (edgeNorm (srcIdx ei) (dstIdx ei) (weights ew)) x W1 b1 W2 b2 W3 b3

end Cert.Gcn

end
-- ==== Proof.LibBiasRow.lean ====
/-
  A bias vector added to every row of a matrix, in the two spellings a program uses.

  A vector `bc` of N entries added to every row of an [M, N] matrix `a`:
  * reshaped to a row [1, N] and added with `RowsProduct.addRow` (a kernel that takes the bias as a [1, N] operand);
  * broadcast [N] → [1, N] → [M, N] and added entrywise (the host's `a + bc`).
  Both are `a (r, c) + bc c` at every entry, on any values.
-/
import proofs.«174687_j17540646436881_1_alg».proof.Proof.LibRowsProduct
import Idealize.ShloMosaic.Lib.Pipeline.Value

noncomputable section

namespace RowsProduct

open Idealize.ShloMosaic Idealize.ShloMosaic.ValueIdx

/-- The reshaped row added by `addRow` is the host's two broadcasts and entrywise sum. -/
theorem addRow_reshape_eq (M N : Nat) (a : FVec Ideal ⟨2, ![M, N]⟩ .f32) (bc : FVec Ideal ⟨1, ![N]⟩ .f32) (hN : N ≠ 1)
    (hs : (⟨1, ![N]⟩ : Shape).ShapeCasts ⟨2, ![1, N]⟩)
    (h1 : (⟨1, ![N]⟩ : Shape).BroadcastsInDim ⟨2, ![1, N]⟩ ![1])
    (h2 : (⟨2, ![1, N]⟩ : Shape).BroadcastsInDim ⟨2, ![M, N]⟩ ![0, 1]) :
    addRow M N a (shapeCast ⟨2, ![1, N]⟩ bc hs)
      = addf a (broadcastInDim ⟨2, ![M, N]⟩ ![0, 1] h2 (broadcastInDim ⟨2, ![1, N]⟩ ![1] h1 bc)) := by
  funext i
  show (a i : EReal) + shapeCast ⟨2, ![1, N]⟩ bc hs (ix2 (0 : Fin 1) (i 1))
    = (a i : EReal) + broadcastInDim ⟨2, ![M, N]⟩ ![0, 1] h2 (broadcastInDim ⟨2, ![1, N]⟩ ![1] h1 bc) i
  congr 1
  refine (shapeCast_addUnit_apply ![N] bc hs (ix2 (0 : Fin 1) (i 1))).trans ?_
  refine Eq.symm ((broadcastInDim_apply ![0, 1] h2 _ i (ix2 (0 : Fin 1) (i 1)) ?_).trans
    ((broadcastInDim_apply ![1] h1 bc (ix2 (0 : Fin 1) (i 1)) (ix1 (i 1)) ?_).trans ?_))
  · intro a
    match a with
    | ⟨0, _⟩ => show (0 : Nat) = if (1 : Nat) = 1 then 0 else _; rw [if_pos rfl]
    | ⟨1, _⟩ => show (i 1).val = if N = 1 then 0 else (i 1).val; rw [if_neg hN]
  · intro a
    match a with
    | ⟨0, _⟩ => show (i 1).val = if N = 1 then 0 else (i 1).val; rw [if_neg hN]
  · congr 1
    funext a
    match a with
    | ⟨0, _⟩ => rfl

end RowsProduct

end
-- ==== Proof.KFold.lean ====
/-
  The kernel program's buffers, boundary by boundary, as the graph convolution's pieces.

  Before the first launch the host builds the three edge lists and the normalised edge weights, once.  Then for each of
  the three layers: a launch multiplies the current features by the layer's weight matrix; the host looks up the source
  rows, scales them by the normalised weights and sums them into the destination rows, and reshapes the layer's bias to
  a row; a second launch adds the bias row (and clamps at 0 in the first two layers).  The edge lists and the normalised
  weights are written once and read by every layer: no later operation and no launch writes their buffers, and the same
  holds for each argument up to the place where it is read.  Reading the boundaries in order gives the result buffer as
  the three `Cert.Gcn.layer`s of the arguments.
-/
import proofs.«174687_j17540646436881_1_alg».proof.Proof.Gen.KernelIdeal.Frame
import proofs.«174687_j17540646436881_1_alg».proof.Proof.KMatmul0
import proofs.«174687_j17540646436881_1_alg».proof.Proof.KBias1
import proofs.«174687_j17540646436881_1_alg».proof.Proof.KMatmul2
import proofs.«174687_j17540646436881_1_alg».proof.Proof.KBias3
import proofs.«174687_j17540646436881_1_alg».proof.Proof.KMatmul4
import proofs.«174687_j17540646436881_1_alg».proof.Proof.KBias5
import proofs.«174687_j17540646436881_1_alg».proof.Proof.Spec
import proofs.«174687_j17540646436881_1_alg».proof.Proof.LibBiasRow
import Idealize.ShloMosaic.Lib.StableHlo.Run

set_option maxRecDepth 16384

noncomputable section

namespace Cert.KernelIdeal.GcnFold

open Idealize.ShloMosaic Idealize.ShloMosaic.TcCoe Idealize.ShloMosaic.ValueIdx Idealize.SL.Sem Idealize.ShloMosaic.StableHlo
open Cert.KernelIdeal Cert.KernelIdeal.Gen Cert.KernelIdeal.GcnRegions RowsProduct

variable (m : (ℓ : Loc nD τ sig) → Buf (Elt Ideal) ℓ) (ρ : Dev nD → PrngReg) (c : Dev nD)

/-! ## Buffers that are left alone

Each chain walks one buffer back through the boundaries that leave it alone: a launch that does not have it among its
arrays, a host stretch none of whose operations writes it. -/

theorem kept3_arg0 : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem kept3_arg3 : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem kept4_arg4 : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem kept6_arg5 : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem kept7_arg6 : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem kept9_arg7 : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem kept10_arg8 : W10 m ρ c (Proc.devRef .tc main_arg8) = m ((c : Thread nD τ).loc main_arg8) :=
  calc W10 m ρ c (Proc.devRef .tc main_arg8)
    _ = W9 m ρ c (Proc.devRef .tc main_arg8) := W10_of_ne m ρ c main_arg8 (by decide)
    _ = W8 m ρ c (Proc.devRef .tc main_arg8) := W9_of_ne m ρ c main_arg8 (by decide)
    _ = W7 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem kept4_v3 : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

theorem kept4_v6 : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem kept4_v31 : W4 m ρ c (Proc.devRef .tc main_v31) = W3 m ρ c (Proc.devRef .tc main_v31) :=
  calc W4 m ρ c (Proc.devRef .tc main_v31)
    _ = W3 m ρ c (Proc.devRef .tc main_v31) := W4_of_ne m ρ c main_v31 (by decide)

theorem kept7_v3 : W7 m ρ c (Proc.devRef .tc main_v3) = W3 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)

theorem kept7_v6 : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)

theorem kept7_v31 : W7 m ρ c (Proc.devRef .tc main_v31) = W3 m ρ c (Proc.devRef .tc main_v31) :=
  calc W7 m ρ c (Proc.devRef .tc main_v31)
    _ = W6 m ρ c (Proc.devRef .tc main_v31) := W7_of_ne m ρ c main_v31 (by decide)
    _ = W5 m ρ c (Proc.devRef .tc main_v31) := W6_of_ne m ρ c main_v31 (by decide)
    _ = W4 m ρ c (Proc.devRef .tc main_v31) := StableHlo.after_of_forall_not_mem (b := Proc.devRef .tc main_v31) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v31) := W4_of_ne m ρ c main_v31 (by decide)

theorem kept10_v3 : W10 m ρ c (Proc.devRef .tc main_v3) = W3 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)

theorem kept10_v6 : W10 m ρ c (Proc.devRef .tc main_v6) = W3 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := StableHlo.after_of_forall_not_mem (b := Proc.devRef .tc main_v6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)

theorem kept10_v31 : W10 m ρ c (Proc.devRef .tc main_v31) = W3 m ρ c (Proc.devRef .tc main_v31) :=
  calc W10 m ρ c (Proc.devRef .tc main_v31)
    _ = W9 m ρ c (Proc.devRef .tc main_v31) := W10_of_ne m ρ c main_v31 (by decide)
    _ = W8 m ρ c (Proc.devRef .tc main_v31) := W9_of_ne m ρ c main_v31 (by decide)
    _ = W7 m ρ c (Proc.devRef .tc main_v31) := StableHlo.after_of_forall_not_mem (b := Proc.devRef .tc main_v31) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v31) := W7_of_ne m ρ c main_v31 (by decide)
    _ = W5 m ρ c (Proc.devRef .tc main_v31) := W6_of_ne m ρ c main_v31 (by decide)
    _ = W4 m ρ c (Proc.devRef .tc main_v31) := StableHlo.after_of_forall_not_mem (b := Proc.devRef .tc main_v31) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v31) := W4_of_ne m ρ c main_v31 (by decide)

/-! ## The edge lists and the normalised weights, built once -/

/-- The source list, as the first launch finds it. -/
theorem src3 : W3 m ρ c (Proc.devRef .tc main_v3) = Gcn.srcIdx (m ((c : Thread nD τ).loc main_arg1)) := by
  show StableHlo.after hostOps0_2 (StableHlo.after hostOps0_1 (StableHlo.after hostOps0 (W0 m ρ c))) (Proc.devRef .tc main_v3) = _
  after_results_simp
  all_goals rfl

/-- The destination list, as the first launch finds it. -/
theorem dst3 : W3 m ρ c (Proc.devRef .tc main_v6) = Gcn.dstIdx (m ((c : Thread nD τ).loc main_arg1)) := by
  show StableHlo.after hostOps0_2 (StableHlo.after hostOps0_1 (StableHlo.after hostOps0 (W0 m ρ c))) (Proc.devRef .tc main_v6) = _
  after_results_simp
  all_goals rfl

/-- The source list, after the first stretch. -/
theorem src1 : W1 m ρ c (Proc.devRef .tc main_v3) = Gcn.srcIdx (m ((c : Thread nD τ).loc main_arg1)) := by
  show StableHlo.after hostOps0 (W0 m ρ c) (Proc.devRef .tc main_v3) = _
  after_results_simp
  all_goals rfl

/-- The destination list, after the first stretch. -/
theorem dst1 : W1 m ρ c (Proc.devRef .tc main_v6) = Gcn.dstIdx (m ((c : Thread nD τ).loc main_arg1)) := by
  show StableHlo.after hostOps0 (W0 m ρ c) (Proc.devRef .tc main_v6) = _
  after_results_simp
  all_goals rfl

/-- The edge weights with the self loops' ones appended. -/
theorem wts1 : W1 m ρ c (Proc.devRef .tc main_v8) = Gcn.weights (m ((c : Thread nD τ).loc main_arg2)) := by
  show StableHlo.after hostOps0 (W0 m ρ c) (Proc.devRef .tc main_v8) = _
  after_results_simp
  all_goals rfl

/-- Where the degree is positive. -/
theorem pos1 : W1 m ρ c (Proc.devRef .tc main_v13) = cmpf .ogt (Gcn.degree (Gcn.dstIdx (m ((c : Thread nD τ).loc main_arg1))) (Gcn.weights (m ((c : Thread nD τ).loc main_arg2)))) (broadcastInDim S100000 ![] bcast_S_S100000 (constant S_ .f32 0x00000000#32)) := by
  show StableHlo.after hostOps0 (W0 m ρ c) (Proc.devRef .tc main_v13) = _
  after_results_simp
  all_goals rfl

/-- The degree to the power -1/2. -/
theorem rsq1 : W1 m ρ c (Proc.devRef .tc main_v14) = Host.rsqrt (Gcn.degree (Gcn.dstIdx (m ((c : Thread nD τ).loc main_arg1))) (Gcn.weights (m ((c : Thread nD τ).loc main_arg2)))) := by
  show StableHlo.after hostOps0 (W0 m ρ c) (Proc.devRef .tc main_v14) = _
  after_results_simp
  all_goals rfl

/-- The scalar 0 the selection falls back to. -/
theorem zero1 : W1 m ρ c (Proc.devRef .tc main_cst_2) = constant (F := Ideal) S_ .f32 0x00000000#32 := by
  show StableHlo.after hostOps0 (W0 m ρ c) (Proc.devRef .tc main_cst_2) = _
  after_results_simp
  all_goals rfl

theorem keep2_v3 : W2 m ρ c (Proc.devRef .tc main_v3) = W1 m ρ c (Proc.devRef .tc main_v3) :=
  StableHlo.after_of_forall_not_mem (b := Proc.devRef .tc main_v3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep2_v6 : W2 m ρ c (Proc.devRef .tc main_v6) = W1 m ρ c (Proc.devRef .tc main_v6) :=
  StableHlo.after_of_forall_not_mem (b := Proc.devRef .tc main_v6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep2_v8 : W2 m ρ c (Proc.devRef .tc main_v8) = W1 m ρ c (Proc.devRef .tc main_v8) :=
  StableHlo.after_of_forall_not_mem (b := Proc.devRef .tc main_v8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The selection between degree^(-1/2) and 0, of whatever buffers the stretch finds. -/
theorem select_stage (V : Valuation τ sig (Elt Ideal)) :
    StableHlo.after hostOps0_1 V (Proc.devRef .tc main_v15)
      = select (V (Proc.devRef .tc main_v13)) (V (Proc.devRef .tc main_v14)) (broadcastInDim S100000 ![] bcast_S_S100000 (id (V (Proc.devRef .tc main_cst_2)))) := by
  after_results_simp
  all_goals rfl

/-- invSqrtDeg(source) * weight * invSqrtDeg(destination) over given edge lists, for a given table of inverse square roots. -/
def normFrom (dinv : FVec Ideal S100000 .f32) (r cl : (⟨S1700000, .i32⟩ : BufTy).Contents (Elt Ideal))
    (ewf : FVec Ideal S1700000 .f32) : FVec Ideal S1700000 .f32 :=
  mulf (mulf (Host.gather gather_S100000_S1700000x1_S1700000_n_0_n_n_0_1_1 dinv (Gcn.wrapIdx (F := Ideal) r) : FVec Ideal S1700000 .f32) ewf)
    (Host.gather gather_S100000_S1700000x1_S1700000_n_0_n_n_0_1_1 dinv (Gcn.wrapIdx (F := Ideal) cl) : FVec Ideal S1700000 .f32)

/-- The two lookups and two products, of whatever buffers the stretch finds. -/
theorem norm_stage (V : Valuation τ sig (Elt Ideal)) :
    StableHlo.after hostOps0_2 V (Proc.devRef .tc main_v31)
      = normFrom (V (Proc.devRef .tc main_v15)) (V (Proc.devRef .tc main_v3)) (V (Proc.devRef .tc main_v6)) (V (Proc.devRef .tc main_v8)) := by
  after_results_simp
  all_goals rfl

/-- The table of inverse square roots of the degrees. -/
theorem dinv2 : W2 m ρ c (Proc.devRef .tc main_v15) = Gcn.invSqrtDeg (Gcn.dstIdx (m ((c : Thread nD τ).loc main_arg1))) (Gcn.weights (m ((c : Thread nD τ).loc main_arg2))) := by
  refine (select_stage (W1 m ρ c)).trans ?_
  rw [pos1, rsq1, zero1]
  rfl

/-- The normalised edge weights. -/
theorem norm3 : W3 m ρ c (Proc.devRef .tc main_v31) = Gcn.edgeNorm (Gcn.srcIdx (m ((c : Thread nD τ).loc main_arg1))) (Gcn.dstIdx (m ((c : Thread nD τ).loc main_arg1))) (Gcn.weights (m ((c : Thread nD τ).loc main_arg2))) := by
  refine (norm_stage (W2 m ρ c)).trans ?_
  rw [dinv2, keep2_v3, keep2_v6, keep2_v8, src1, dst1, wts1]
  rfl

/-! ## The host stretch of each layer: the aggregation over the edges and the bias as a row -/

/-- Layer 1's aggregation, of the buffers the stretch finds. -/
theorem agg1 : W5 m ρ c (Proc.devRef .tc main_v45) = Gcn.aggregate (W4 m ρ c (Proc.devRef .tc main_v3)) (W4 m ρ c (Proc.devRef .tc main_v6)) (W4 m ρ c (Proc.devRef .tc main_v31)) (W4 m ρ c (Proc.devRef .tc main_v32)) := by
  show StableHlo.after hostOps1 (W4 m ρ c) (Proc.devRef .tc main_v45) = _
  after_results_simp
  all_goals rfl

/-- Layer 1's bias as a row. -/
theorem row1 : W5 m ρ c (Proc.devRef .tc main_v46) = shapeCast S1x128 (W4 m ρ c (Proc.devRef .tc main_arg4)) shapeCasts_S128_S1x128 := by
  show StableHlo.after hostOps1 (W4 m ρ c) (Proc.devRef .tc main_v46) = _
  after_results_simp
  all_goals rfl

/-- Layer 2's aggregation. -/
theorem agg2 : W8 m ρ c (Proc.devRef .tc main_v61) = Gcn.aggregate (W7 m ρ c (Proc.devRef .tc main_v3)) (W7 m ρ c (Proc.devRef .tc main_v6)) (W7 m ρ c (Proc.devRef .tc main_v31)) (W7 m ρ c (Proc.devRef .tc main_v48)) := by
  show StableHlo.after hostOps3 (W7 m ρ c) (Proc.devRef .tc main_v61) = _
  after_results_simp
  all_goals rfl

/-- Layer 2's bias as a row. -/
theorem row2 : W8 m ρ c (Proc.devRef .tc main_v62) = shapeCast S1x128 (W7 m ρ c (Proc.devRef .tc main_arg6)) shapeCasts_S128_S1x128 := by
  show StableHlo.after hostOps3 (W7 m ρ c) (Proc.devRef .tc main_v62) = _
  after_results_simp
  all_goals rfl

/-- Layer 3's aggregation. -/
theorem agg3 : W11 m ρ c (Proc.devRef .tc main_v77) = Gcn.aggregate (W10 m ρ c (Proc.devRef .tc main_v3)) (W10 m ρ c (Proc.devRef .tc main_v6)) (W10 m ρ c (Proc.devRef .tc main_v31)) (W10 m ρ c (Proc.devRef .tc main_v64)) := by
  show StableHlo.after hostOps5 (W10 m ρ c) (Proc.devRef .tc main_v77) = _
  after_results_simp
  all_goals rfl

/-- Layer 3's bias as a row. -/
theorem row3 : W11 m ρ c (Proc.devRef .tc main_v78) = shapeCast S1x128 (W10 m ρ c (Proc.devRef .tc main_arg8)) shapeCasts_S128_S1x128 := by
  show StableHlo.after hostOps5 (W10 m ρ c) (Proc.devRef .tc main_v78) = _
  after_results_simp
  all_goals rfl

/-! ## The layers -/

/-- The bias reshaped to a row and added to every row is the host's two broadcasts and entrywise sum. -/
theorem clamp_addRow (A : (⟨Cert.ReferenceIdeal.S100000x128, .f32⟩ : BufTy).Contents (Elt Ideal))
    (b : (⟨Cert.ReferenceIdeal.S128, .f32⟩ : BufTy).Contents (Elt Ideal)) :
    addRow 100000 128 A (shapeCast S1x128 b shapeCasts_S128_S1x128) = Gcn.addBias (F := Ideal) A b :=
  addRow_reshape_eq 100000 128 A b (by decide) shapeCasts_S128_S1x128 Cert.ReferenceIdeal.Gen.bcast_S128_S1x128_1
    Cert.ReferenceIdeal.Gen.bcast_S1x128_S100000x128_0_1

/-- The first launch leaves the features times the first weight matrix. -/
theorem lin1 : W4 m ρ c (Proc.devRef .tc main_v32) = Gcn.linear (m ((c : Thread nD τ).loc main_arg0)) (m ((c : Thread nD τ).loc main_arg3)) := by
  refine (W4_arr m ρ c 2).trans ((product0 (V3 m ρ) c).trans ?_)
  show prod 100000 128 128 (W3 m ρ c (Proc.devRef .tc main_arg0)) (W3 m ρ c (Proc.devRef .tc main_arg3)) = _
  rw [kept3_arg0, kept3_arg3]
  exact (hostDot_eq 100000 128 128 _ _).symm

/-- After the second launch: the first layer, clamped. -/
theorem layer1 : W6 m ρ c (Proc.devRef .tc main_v47) = Gcn.relu (Gcn.layer (Gcn.srcIdx (m ((c : Thread nD τ).loc main_arg1))) (Gcn.dstIdx (m ((c : Thread nD τ).loc main_arg1))) (Gcn.edgeNorm (Gcn.srcIdx (m ((c : Thread nD τ).loc main_arg1))) (Gcn.dstIdx (m ((c : Thread nD τ).loc main_arg1))) (Gcn.weights (m ((c : Thread nD τ).loc main_arg2)))) (m ((c : Thread nD τ).loc main_arg0)) (m ((c : Thread nD τ).loc main_arg3)) (m ((c : Thread nD τ).loc main_arg4))) := by
  refine (W6_arr m ρ c 2).trans ((biased1 (V5 m ρ) c).trans ?_)
  show clampRows1 (addRow 100000 128 (W5 m ρ c (Proc.devRef .tc main_v45)) (W5 m ρ c (Proc.devRef .tc main_v46))) = _
  rw [agg1, row1, kept4_v3, kept4_v6, kept4_v31, lin1, kept4_arg4, src3, dst3, norm3, clamp_addRow]
  rfl

/-- The third launch leaves layer 1's output times the second weight matrix. -/
theorem lin2 : W7 m ρ c (Proc.devRef .tc main_v48) = Gcn.linear (Gcn.relu (Gcn.layer (Gcn.srcIdx (m ((c : Thread nD τ).loc main_arg1))) (Gcn.dstIdx (m ((c : Thread nD τ).loc main_arg1))) (Gcn.edgeNorm (Gcn.srcIdx (m ((c : Thread nD τ).loc main_arg1))) (Gcn.dstIdx (m ((c : Thread nD τ).loc main_arg1))) (Gcn.weights (m ((c : Thread nD τ).loc main_arg2)))) (m ((c : Thread nD τ).loc main_arg0)) (m ((c : Thread nD τ).loc main_arg3)) (m ((c : Thread nD τ).loc main_arg4)))) (m ((c : Thread nD τ).loc main_arg5)) := by
  refine (W7_arr m ρ c 2).trans ((product2 (V6 m ρ) c).trans ?_)
  show prod 100000 128 128 (W6 m ρ c (Proc.devRef .tc main_v47)) (W6 m ρ c (Proc.devRef .tc main_arg5)) = _
  rw [layer1, kept6_arg5]
  exact (hostDot_eq 100000 128 128 _ _).symm

/-- After the fourth launch: the second layer, clamped. -/
theorem layer2 : W9 m ρ c (Proc.devRef .tc main_v63) = Gcn.relu (Gcn.layer (Gcn.srcIdx (m ((c : Thread nD τ).loc main_arg1))) (Gcn.dstIdx (m ((c : Thread nD τ).loc main_arg1))) (Gcn.edgeNorm (Gcn.srcIdx (m ((c : Thread nD τ).loc main_arg1))) (Gcn.dstIdx (m ((c : Thread nD τ).loc main_arg1))) (Gcn.weights (m ((c : Thread nD τ).loc main_arg2)))) (Gcn.relu (Gcn.layer (Gcn.srcIdx (m ((c : Thread nD τ).loc main_arg1))) (Gcn.dstIdx (m ((c : Thread nD τ).loc main_arg1))) (Gcn.edgeNorm (Gcn.srcIdx (m ((c : Thread nD τ).loc main_arg1))) (Gcn.dstIdx (m ((c : Thread nD τ).loc main_arg1))) (Gcn.weights (m ((c : Thread nD τ).loc main_arg2)))) (m ((c : Thread nD τ).loc main_arg0)) (m ((c : Thread nD τ).loc main_arg3)) (m ((c : Thread nD τ).loc main_arg4)))) (m ((c : Thread nD τ).loc main_arg5)) (m ((c : Thread nD τ).loc main_arg6))) := by
  refine (W9_arr m ρ c 2).trans ((biased3 (V8 m ρ) c).trans ?_)
  show clampRows3 (addRow 100000 128 (W8 m ρ c (Proc.devRef .tc main_v61)) (W8 m ρ c (Proc.devRef .tc main_v62))) = _
  rw [agg2, row2, kept7_v3, kept7_v6, kept7_v31, lin2, kept7_arg6, src3, dst3, norm3, clamp_addRow]
  rfl

/-- The fifth launch leaves layer 2's output times the third weight matrix. -/
theorem lin3 : W10 m ρ c (Proc.devRef .tc main_v64) = Gcn.linear (Gcn.relu (Gcn.layer (Gcn.srcIdx (m ((c : Thread nD τ).loc main_arg1))) (Gcn.dstIdx (m ((c : Thread nD τ).loc main_arg1))) (Gcn.edgeNorm (Gcn.srcIdx (m ((c : Thread nD τ).loc main_arg1))) (Gcn.dstIdx (m ((c : Thread nD τ).loc main_arg1))) (Gcn.weights (m ((c : Thread nD τ).loc main_arg2)))) (Gcn.relu (Gcn.layer (Gcn.srcIdx (m ((c : Thread nD τ).loc main_arg1))) (Gcn.dstIdx (m ((c : Thread nD τ).loc main_arg1))) (Gcn.edgeNorm (Gcn.srcIdx (m ((c : Thread nD τ).loc main_arg1))) (Gcn.dstIdx (m ((c : Thread nD τ).loc main_arg1))) (Gcn.weights (m ((c : Thread nD τ).loc main_arg2)))) (m ((c : Thread nD τ).loc main_arg0)) (m ((c : Thread nD τ).loc main_arg3)) (m ((c : Thread nD τ).loc main_arg4)))) (m ((c : Thread nD τ).loc main_arg5)) (m ((c : Thread nD τ).loc main_arg6)))) (m ((c : Thread nD τ).loc main_arg7)) := by
  refine (W10_arr m ρ c 2).trans ((product4 (V9 m ρ) c).trans ?_)
  show prod 100000 128 128 (W9 m ρ c (Proc.devRef .tc main_v63)) (W9 m ρ c (Proc.devRef .tc main_arg7)) = _
  rw [layer2, kept9_arg7]
  exact (hostDot_eq 100000 128 128 _ _).symm

/-- After the sixth launch: the third layer, which is the network. -/
theorem layer3 : W12 m ρ c (Proc.devRef .tc main_v79) = Gcn.layer (Gcn.srcIdx (m ((c : Thread nD τ).loc main_arg1))) (Gcn.dstIdx (m ((c : Thread nD τ).loc main_arg1))) (Gcn.edgeNorm (Gcn.srcIdx (m ((c : Thread nD τ).loc main_arg1))) (Gcn.dstIdx (m ((c : Thread nD τ).loc main_arg1))) (Gcn.weights (m ((c : Thread nD τ).loc main_arg2)))) (Gcn.relu (Gcn.layer (Gcn.srcIdx (m ((c : Thread nD τ).loc main_arg1))) (Gcn.dstIdx (m ((c : Thread nD τ).loc main_arg1))) (Gcn.edgeNorm (Gcn.srcIdx (m ((c : Thread nD τ).loc main_arg1))) (Gcn.dstIdx (m ((c : Thread nD τ).loc main_arg1))) (Gcn.weights (m ((c : Thread nD τ).loc main_arg2)))) (Gcn.relu (Gcn.layer (Gcn.srcIdx (m ((c : Thread nD τ).loc main_arg1))) (Gcn.dstIdx (m ((c : Thread nD τ).loc main_arg1))) (Gcn.edgeNorm (Gcn.srcIdx (m ((c : Thread nD τ).loc main_arg1))) (Gcn.dstIdx (m ((c : Thread nD τ).loc main_arg1))) (Gcn.weights (m ((c : Thread nD τ).loc main_arg2)))) (m ((c : Thread nD τ).loc main_arg0)) (m ((c : Thread nD τ).loc main_arg3)) (m ((c : Thread nD τ).loc main_arg4)))) (m ((c : Thread nD τ).loc main_arg5)) (m ((c : Thread nD τ).loc main_arg6)))) (m ((c : Thread nD τ).loc main_arg7)) (m ((c : Thread nD τ).loc main_arg8)) := by
  refine (W12_arr m ρ c 2).trans ((biased5 (V11 m ρ) c).trans ?_)
  show clampRows5 (addRow 100000 128 (W11 m ρ c (Proc.devRef .tc main_v77)) (W11 m ρ c (Proc.devRef .tc main_v78))) = _
  rw [agg3, row3, kept10_v3, kept10_v6, kept10_v31, lin3, kept10_arg8, src3, dst3, norm3, clamp_addRow]
  rfl

/-- The kernel program's result buffer ends at the network of its arguments. -/
theorem result : W12 m ρ c (Proc.devRef .tc main_v79)
    = Gcn.gcn (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) :=
  (layer3 m ρ c).trans rfl

end Cert.KernelIdeal.GcnFold

end
-- ==== Proof.RefIsSpec.lean ====
/-
  The reference program computes the three-layer graph convolution `Cert.Gcn.gcn` of its arguments: its result, written
  out as the composition of its array operations, is that function's definition unfolded. (The reference recomputes the
  degrees and the normalised edge weights in every layer; they are the same function of the same arguments each time.)
-/
import proofs.«174687_j17540646436881_1_alg».proof.Proof.Gen.ReferenceIdeal.Run
import proofs.«174687_j17540646436881_1_alg».proof.Proof.Spec

noncomputable section

namespace Cert.Gcn

open Idealize.ShloMosaic Idealize.ShloMosaic.TcCoe Idealize.SL.Sem Cert.ReferenceIdeal

variable {F : FTy → Type} [FloatOps F]

set_option maxRecDepth 8192 in
/-- The reference's result is `gcn` of its argument arrays. -/
theorem ref_result (m : (ℓ : Loc nD τ sig) → Buf (Elt F) ℓ) (c : Dev nD) :
    Cert.ReferenceIdeal.Value.res_main_v130 m c
      = gcn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  unfold Cert.ReferenceIdeal.Value.res_main_v130
  rfl

end Cert.Gcn

end
-- ==== Proof.lean ====
/-
  The proof of `Cert.Claim`: a three-layer graph convolution whose dense steps run as six tiled kernel launches (a
  matrix product and a bias addition per layer), against the same network written with plain array operations.

  Frames: the two kernel programs by their generated frame certificates, the reference by its generated run.  The
  idealization rewrote nothing, so `preserves` is trivial.  `algebraic`: on the extended reals both programs end with
  `Cert.Gcn.gcn` of the nine arguments.  For the reference that is its result term unfolded (Proof/RefIsSpec.lean).  For
  the kernel program the buffer contents are followed boundary by boundary (Proof/KRun.lean, Proof/KFold.lean): each
  product launch leaves the product of its whole input matrices, because an entry of a product reads one row of the left
  factor and the 20 row blocks cover the matrix (Proof/KMatmul*.lean; a tiled product into a zero accumulator and the
  host's contraction are the same finite sum of products, and the bf16 casts are the identity); each bias launch leaves
  its input plus the bias row, clamped at 0 in the first two layers (Proof/KBias*.lean); the host operations between the
  launches are the reference's own.  No law used needs a finite value, so the precondition is never opened.
-/
import proofs.«174687_j17540646436881_1_alg».proof.Defs
import proofs.«174687_j17540646436881_1_alg».proof.Proof.Gen.Kernel
import proofs.«174687_j17540646436881_1_alg».proof.Proof.Gen.Kernel.Frame
import proofs.«174687_j17540646436881_1_alg».proof.Proof.Gen.KernelIdeal
import proofs.«174687_j17540646436881_1_alg».proof.Proof.Gen.KernelIdeal.Frame
import proofs.«174687_j17540646436881_1_alg».proof.Proof.Gen.ReferenceIdeal
import proofs.«174687_j17540646436881_1_alg».proof.Proof.Gen.ReferenceIdeal.Run
import proofs.«174687_j17540646436881_1_alg».proof.Proof.Gen.Pre_finite_inputs
import proofs.«174687_j17540646436881_1_alg».proof.Proof.KRun
import proofs.«174687_j17540646436881_1_alg».proof.Proof.KFold
import proofs.«174687_j17540646436881_1_alg».proof.Proof.RefIsSpec
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, from memories that agree on the arguments, end with the network `Cert.Gcn.gcn` of those arguments. -/
theorem algebraic : Cert.algebraic_KernelIdeal_ReferenceIdeal := by
  intro m ρ m' ρ' _ hagree
  refine ⟨fun c => Cert.Gcn.gcn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.GcnFold.result m ρ c), (h c).2⟩)
      (Cert.KernelIdeal.GcnRun.run_last (F := Ideal) m ρ)
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.Gcn.ref_result, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
